-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x512 : Shape := ⟨2, ![200000, 512]⟩
abbrev S200000x256 : Shape := ⟨2, ![200000, 256]⟩
abbrev S64x128 : Shape := ⟨2, ![64, 128]⟩
abbrev S200000 : Shape := ⟨1, ![200000]⟩
abbrev S1280x32 : Shape := ⟨2, ![1280, 32]⟩
abbrev S32 : Shape := ⟨1, ![32]⟩
abbrev S32x128 : Shape := ⟨2, ![32, 128]⟩
abbrev S128 : Shape := ⟨1, ![128]⟩
abbrev S_ : Shape := ⟨0, ![]⟩

class Facts : Prop where
  bcast_S_S200000x512 : S_.BroadcastsInDim S200000x512 (![] : Fin 0 → Fin S200000x512.rank)
  reducesTo_S200000x512_S_d0_1 : S200000x512.ReducesTo [0, 1] S_
  h_S_ : 0 < S_.numel
  bcast_S_S200000x256 : S_.BroadcastsInDim S200000x256 (![] : Fin 0 → Fin S200000x256.rank)
  reducesTo_S200000x256_S_d0_1 : S200000x256.ReducesTo [0, 1] S_
  bcast_S_S64x128 : S_.BroadcastsInDim S64x128 (![] : Fin 0 → Fin S64x128.rank)
  reducesTo_S64x128_S_d0_1 : S64x128.ReducesTo [0, 1] S_
  bcast_S_S1280x32 : S_.BroadcastsInDim S1280x32 (![] : Fin 0 → Fin S1280x32.rank)
  reducesTo_S1280x32_S_d0_1 : S1280x32.ReducesTo [0, 1] S_
  bcast_S_S32 : S_.BroadcastsInDim S32 (![] : Fin 0 → Fin S32.rank)
  reducesTo_S32_S_d0 : S32.ReducesTo [0] S_
  bcast_S_S32x128 : S_.BroadcastsInDim S32x128 (![] : Fin 0 → Fin S32x128.rank)
  reducesTo_S32x128_S_d0_1 : S32x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg8 : FVec F S128 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  main_v38

def fn_part1 {F : FTy → Type} [FloatOps F] (main_arg5 : FVec F S1280x32 .f32) (main_arg6 : FVec F S32 .f32) (main_arg7 : FVec F S32x128 .f32) (main_arg8 : FVec F S128 .f32) (main_v13 : IVec S_ 1) (main_v16 : IVec S64x128 1) : IVec S_ 1 :=
  let main_c_5 : IVec S_ 1 := constantI S_ 1 1#1
  let main_v17 : IVec S_ 1 := (fun x v => Host.reduce IntOp.andi x v reducesTo_S64x128_S_d0_1 h_S_) main_v16 main_c_5
  let main_v18 : IVec S_ 1 := andi main_v13 main_v17
  let main_v19 : FVec F S1280x32 .f32 := Host.absf main_arg5
  let main_cst_6 : FVec F S_ .f32 := constant S_ .f32 0x7F800000#32
  let main_v20 : FVec F S1280x32 .f32 := broadcastInDim S1280x32 ![] bcast_S_S1280x32 main_cst_6
  let main_v21 : IVec S1280x32 1 := cmpf .olt main_v19 main_v20
  let main_c_7 : IVec S_ 1 := constantI S_ 1 1#1
  let main_v22 : IVec S_ 1 := (fun x v => Host.reduce IntOp.andi x v reducesTo_S1280x32_S_d0_1 h_S_) main_v21 main_c_7
  let main_v23 : IVec S_ 1 := andi main_v18 main_v22
  let main_v24 : FVec F S32 .f32 := Host.absf main_arg6
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  let main_v29 : FVec F S32x128 .f32 := Host.absf main_arg7
  let main_cst_10 : FVec F S_ .f32 := constant S_ .f32 0x7F800000#32
  let main_v30 : FVec F S32x128 .f32 := broadcastInDim S32x128 ![] bcast_S_S32x128 main_cst_10
  let main_v31 : IVec S32x128 1 := cmpf .olt main_v29 main_v30
  let main_c_11 : IVec S_ 1 := constantI S_ 1 1#1
  let main_v32 : IVec S_ 1 := (fun x v => Host.reduce IntOp.andi x v reducesTo_S32x128_S_d0_1 h_S_) main_v31 main_c_11
  let main_v33 : IVec S_ 1 := andi main_v28 main_v32
  fn_part2 (F := F) main_arg8 main_v33

def fn {F : FTy → Type} [FloatOps F] (main_arg0 : FVec F S200000x512 .f32) (main_arg1 : FVec F S200000x512 .f32) (main_arg2 : FVec F S200000x256 .f32) (main_arg3 : FVec F S64x128 .f32) (main_arg4 : IVec S200000 32) (main_arg5 : FVec F S1280x32 .f32) (main_arg6 : FVec F S32 .f32) (main_arg7 : FVec F S32x128 .f32) (main_arg8 : FVec F S128 .f32) : IVec S_ 1 :=
  let main_v0 : FVec F S200000x512 .f32 := Host.absf main_arg0
  let main_cst : FVec F S_ .f32 := constant S_ .f32 0x7F800000#32
  let main_v1 : FVec F S200000x512 .f32 := broadcastInDim S200000x512 ![] bcast_S_S200000x512 main_cst
  let main_v2 : IVec S200000x512 1 := cmpf .olt main_v0 main_v1
  let main_c : IVec S_ 1 := constantI S_ 1 1#1
  let main_v3 : IVec S_ 1 := (fun x v => Host.reduce IntOp.andi x v reducesTo_S200000x512_S_d0_1 h_S_) main_v2 main_c
  let main_v4 : FVec F S200000x512 .f32 := Host.absf main_arg1
  let main_cst_0 : FVec F S_ .f32 := constant S_ .f32 0x7F800000#32
  let main_v5 : FVec F S200000x512 .f32 := broadcastInDim S200000x512 ![] bcast_S_S200000x512 main_cst_0
  let main_v6 : IVec S200000x512 1 := cmpf .olt main_v4 main_v5
  let main_c_1 : IVec S_ 1 := constantI S_ 1 1#1
  let main_v7 : IVec S_ 1 := (fun x v => Host.reduce IntOp.andi x v reducesTo_S200000x512_S_d0_1 h_S_) main_v6 main_c_1
  let main_v8 : IVec S_ 1 := andi main_v3 main_v7
  let main_v9 : FVec F S200000x256 .f32 := Host.absf main_arg2
  let main_cst_2 : FVec F S_ .f32 := constant S_ .f32 0x7F800000#32
  let main_v10 : FVec F S200000x256 .f32 := broadcastInDim S200000x256 ![] bcast_S_S200000x256 main_cst_2
  let main_v11 : IVec S200000x256 1 := cmpf .olt main_v9 main_v10
  let main_c_3 : IVec S_ 1 := constantI S_ 1 1#1
  let main_v12 : IVec S_ 1 := (fun x v => Host.reduce IntOp.andi x v reducesTo_S200000x256_S_d0_1 h_S_) main_v11 main_c_3
  let main_v13 : IVec S_ 1 := andi main_v8 main_v12
  let main_v14 : FVec F S64x128 .f32 := Host.absf main_arg3
  let main_cst_4 : FVec F S_ .f32 := constant S_ .f32 0x7F800000#32
  let main_v15 : FVec F S64x128 .f32 := broadcastInDim S64x128 ![] bcast_S_S64x128 main_cst_4
  let main_v16 : IVec S64x128 1 := cmpf .olt main_v14 main_v15
  fn_part1 (F := F) main_arg5 main_arg6 main_arg7 main_arg8 main_v13 main_v16
-- ==== Kernel.lean ====
abbrev S200000x512 : Shape := ⟨2, ![200000, 512]⟩
abbrev S200000x256 : Shape := ⟨2, ![200000, 256]⟩
abbrev S64x128 : Shape := ⟨2, ![64, 128]⟩
abbrev S200000 : Shape := ⟨1, ![200000]⟩
abbrev S1280x32 : Shape := ⟨2, ![1280, 32]⟩
abbrev S32 : Shape := ⟨1, ![32]⟩
abbrev S32x128 : Shape := ⟨2, ![32, 128]⟩
abbrev S128 : Shape := ⟨1, ![128]⟩
abbrev S512x32 : Shape := ⟨2, ![512, 32]⟩
abbrev S256x32 : Shape := ⟨2, ![256, 32]⟩
abbrev S1x32 : Shape := ⟨2, ![1, 32]⟩
abbrev S1x128 : Shape := ⟨2, ![1, 128]⟩
abbrev S200000x128 : Shape := ⟨2, ![200000, 128]⟩
abbrev S2000x512 : Shape := ⟨2, ![2000, 512]⟩
abbrev S2000x256 : Shape := ⟨2, ![2000, 256]⟩
abbrev S2000x128 : Shape := ⟨2, ![2000, 128]⟩
abbrev S2000x32 : Shape := ⟨2, ![2000, 32]⟩

abbrev nBuf : Space → Nat
  | .hbm => 15
  | .vmem => 14
  | .smem => 0
  | _ => 0

abbrev bufTy : (tb : Table) → Fin (tcTables nBuf tb) → BufTy
  | .hbm, ⟨0, _⟩ => ⟨S200000x512, .f32⟩
  | .hbm, ⟨1, _⟩ => ⟨S200000x512, .f32⟩
  | .hbm, ⟨2, _⟩ => ⟨S200000x256, .f32⟩
  | .hbm, ⟨3, _⟩ => ⟨S64x128, .f32⟩
  | .hbm, ⟨4, _⟩ => ⟨S200000, .i32⟩
  | .hbm, ⟨5, _⟩ => ⟨S1280x32, .f32⟩
  | .hbm, ⟨6, _⟩ => ⟨S32, .f32⟩
  | .hbm, ⟨7, _⟩ => ⟨S32x128, .f32⟩
  | .hbm, ⟨8, _⟩ => ⟨S128, .f32⟩
  | .hbm, ⟨9, _⟩ => ⟨S512x32, .f32⟩
  | .hbm, ⟨10, _⟩ => ⟨S512x32, .f32⟩
  | .hbm, ⟨11, _⟩ => ⟨S256x32, .f32⟩
  | .hbm, ⟨12, _⟩ => ⟨S1x32, .f32⟩
  | .hbm, ⟨13, _⟩ => ⟨S1x128, .f32⟩
  | .hbm, ⟨14, _⟩ => ⟨S200000x128, .f32⟩
  | .local _ .vmem, ⟨0, _⟩ => ⟨S2000x512, .f32⟩
  | .local _ .vmem, ⟨1, _⟩ => ⟨S2000x512, .f32⟩
  | .local _ .vmem, ⟨2, _⟩ => ⟨S2000x512, .f32⟩
  | .local _ .vmem, ⟨3, _⟩ => ⟨S2000x512, .f32⟩
  | .local _ .vmem, ⟨4, _⟩ => ⟨S2000x256, .f32⟩
  | .local _ .vmem, ⟨5, _⟩ => ⟨S2000x256, .f32⟩
  | .local _ .vmem, ⟨6, _⟩ => ⟨S512x32, .f32⟩
  | .local _ .vmem, ⟨7, _⟩ => ⟨S512x32, .f32⟩
  | .local _ .vmem, ⟨8, _⟩ => ⟨S256x32, .f32⟩
  | .local _ .vmem, ⟨9, _⟩ => ⟨S1x32, .f32⟩
  | .local _ .vmem, ⟨10, _⟩ => ⟨S32x128, .f32⟩
  | .local _ .vmem, ⟨11, _⟩ => ⟨S1x128, .f32⟩
  | .local _ .vmem, ⟨12, _⟩ => ⟨S2000x128, .f32⟩
  | .local _ .vmem, ⟨13, _⟩ => ⟨S2000x128, .f32⟩
  | _, _ => ⟨S200000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S512x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S32x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S2000x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  slices_S1280x32_S512x32_0_0 : S1280x32.Slices ![0, 0] S512x32
  slices_S1280x32_S512x32_512_0 : S1280x32.Slices ![512, 0] S512x32
  slices_S1280x32_S256x32_1024_0 : S1280x32.Slices ![1024, 0] S256x32
  shapeCasts_S32_S1x32 : S32.ShapeCasts S1x32
  shapeCasts_S128_S1x128 : S128.ShapeCasts S1x128
  inb_S2000x512_S2000x512_0_0 : ∀ a, (![0, 0] : Fin 2 → Nat) a + S2000x512.size a ≤ S2000x512.size a
  h_S2000x512 : 0 < S2000x512.numel
  bitsLt_bf16_f32 : FTy.bits .bf16 < FTy.bits .f32
  inb_S2000x256_S2000x256_0_0 : ∀ a, (![0, 0] : Fin 2 → Nat) a + S2000x256.size a ≤ S2000x256.size a
  h_S2000x256 : 0 < S2000x256.numel
  inb_S512x32_S512x32_0_0 : ∀ a, (![0, 0] : Fin 2 → Nat) a + S512x32.size a ≤ S512x32.size a
  h_S512x32 : 0 < S512x32.numel
  shapeCasts_S512x32_S512x32 : S512x32.ShapeCasts S512x32
  inb_S256x32_S256x32_0_0 : ∀ a, (![0, 0] : Fin 2 → Nat) a + S256x32.size a ≤ S256x32.size a
  h_S256x32 : 0 < S256x32.numel
  shapeCasts_S256x32_S256x32 : S256x32.ShapeCasts S256x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S2000x32 : S1x32.Broadcasts S2000x32
  inb_S32x128_S32x128_0_0 : ∀ a, (![0, 0] : Fin 2 → Nat) a + S32x128.size a ≤ S32x128.size a
  h_S32x128 : 0 < S32x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S2000x128_S2000x128_0_0 : ∀ a, (![0, 0] : Fin 2 → Nat) a + S2000x128.size a ≤ S2000x128.size a
  h_S2000x128 : 0 < S2000x128.numel
  dot_S2000x512_S512x32_S2000x32_1_0_0_1_n_n_wf : DotDims.WF S2000x512 S512x32 S2000x32 [1] [0] [0] [1] [] []
  dot_S2000x256_S256x32_S2000x32_1_0_0_1_n_n_wf : DotDims.WF S2000x256 S256x32 S2000x32 [1] [0] [0] [1] [] []
  dot_S2000x32_S32x128_S2000x128_1_0_0_1_n_n_wf : DotDims.WF S2000x32 S32x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S200000x512.size a
  hwx0_0 : ∀ i : grid0.Coords, EltTy.bits .f32 = 32 ∨ (Rect.block (s := S200000x512) S2000x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x512.size a ≤ S200000x512.size a
  hwx0_1 : ∀ i : grid0.Coords, EltTy.bits .f32 = 32 ∨ (Rect.block (s := S200000x512) S2000x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x256.size a ≤ S200000x256.size a
  hwx0_2 : ∀ i : grid0.Coords, EltTy.bits .f32 = 32 ∨ (Rect.block (s := S200000x256) S2000x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x32.size a ≤ S512x32.size a
  hwx0_3 : ∀ i : grid0.Coords, EltTy.bits .f32 = 32 ∨ (Rect.block (s := S512x32) S512x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x32.size a ≤ S512x32.size a
  hwx0_4 : ∀ i : grid0.Coords, EltTy.bits .f32 = 32 ∨ (Rect.block (s := S512x32) S512x32.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x32.size a ≤ S256x32.size a
  hwx0_5 : ∀ i : grid0.Coords, EltTy.bits .f32 = 32 ∨ (Rect.block (s := S256x32) S256x32.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x32.size a ≤ S1x32.size a
  hwx0_6 : ∀ i : grid0.Coords, EltTy.bits .f32 = 32 ∨ (Rect.block (s := S1x32) S1x32.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S32x128.size a ≤ S32x128.size a
  hwx0_7 : ∀ i : grid0.Coords, EltTy.bits .f32 = 32 ∨ (Rect.block (s := S32x128) S32x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S2000x128.size a ≤ S200000x128.size a
  hwx0_9 : ∀ i : grid0.Coords, EltTy.bits .f32 = 32 ∨ (Rect.block (s := S200000x128) S2000x128.size (cc0_transform_9 i) (hinb0_9 i)).WholeWords (EltTy.packing .f32)

variable [Facts₀]

def dot_S2000x512_S512x32_S2000x32_1_0_0_1_n_n : DotDims S2000x512 S512x32 S2000x32 where
  lhsContracting := [1]
  rhsContracting := [0]
  lhsNonContracting := [0]
  rhsNonContracting := [1]
  lhsBatch := []
  rhsBatch := []
  wf := dot_S2000x512_S512x32_S2000x32_1_0_0_1_n_n_wf
def dot_S2000x256_S256x32_S2000x32_1_0_0_1_n_n : DotDims S2000x256 S256x32 S2000x32 where
  lhsContracting := [1]
  rhsContracting := [0]
  lhsNonContracting := [0]
  rhsNonContracting := [1]
  lhsBatch := []
  rhsBatch := []
  wf := dot_S2000x256_S256x32_S2000x32_1_0_0_1_n_n_wf
def dot_S2000x32_S32x128_S2000x128_1_0_0_1_n_n : DotDims S2000x32 S32x128 S2000x128 where
  lhsContracting := [1]
  rhsContracting := [0]
  lhsNonContracting := [0]
  rhsNonContracting := [1]
  lhsBatch := []
  rhsBatch := []
  wf := dot_S2000x32_S32x128_S2000x128_1_0_0_1_n_n_wf

abbrev win0_0 : Pipeline.Window sig grid0 :=
  Pipeline.Window.ofSpec (Memref.whole main_arg0) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2000x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S2000x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S512x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S512x32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S256x32.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3) S1x32.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S32x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v4) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v5) S2000x128.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S200000x512 : Shape := ⟨2, ![200000, 512]⟩
abbrev S200000x256 : Shape := ⟨2, ![200000, 256]⟩
abbrev S64x128 : Shape := ⟨2, ![64, 128]⟩
abbrev S200000 : Shape := ⟨1, ![200000]⟩
abbrev S1280x32 : Shape := ⟨2, ![1280, 32]⟩
abbrev S32 : Shape := ⟨1, ![32]⟩
abbrev S32x128 : Shape := ⟨2, ![32, 128]⟩
abbrev S128 : Shape := ⟨1, ![128]⟩
abbrev S200000x1280 : Shape := ⟨2, ![200000, 1280]⟩
abbrev S200000x32 : Shape := ⟨2, ![200000, 32]⟩
abbrev S1x32 : Shape := ⟨2, ![1, 32]⟩
abbrev S_ : Shape := ⟨0, ![]⟩
abbrev S200000x128 : Shape := ⟨2, ![200000, 128]⟩
abbrev S1x128 : Shape := ⟨2, ![1, 128]⟩

abbrev nBuf : Space → Nat
  | .hbm => 33
  | .vmem => 0
  | .smem => 0
  | _ => 0

abbrev bufTy : (tb : Table) → Fin (tcTables nBuf tb) → BufTy
  | .hbm, ⟨0, _⟩ => ⟨S200000x512, .f32⟩
  | .hbm, ⟨1, _⟩ => ⟨S200000x512, .f32⟩
  | .hbm, ⟨2, _⟩ => ⟨S200000x256, .f32⟩
  | .hbm, ⟨3, _⟩ => ⟨S64x128, .f32⟩
  | .hbm, ⟨4, _⟩ => ⟨S200000, .i32⟩
  | .hbm, ⟨5, _⟩ => ⟨S1280x32, .f32⟩
  | .hbm, ⟨6, _⟩ => ⟨S32, .f32⟩
  | .hbm, ⟨7, _⟩ => ⟨S32x128, .f32⟩
  | .hbm, ⟨8, _⟩ => ⟨S128, .f32⟩
  | .hbm, ⟨9, _⟩ => ⟨S200000x1280, .f32⟩
  | .hbm, ⟨10, _⟩ => ⟨S200000x32, .f32⟩
  | .hbm, ⟨11, _⟩ => ⟨S1x32, .f32⟩
  | .hbm, ⟨12, _⟩ => ⟨S200000x32, .f32⟩
  | .hbm, ⟨13, _⟩ => ⟨S200000x32, .f32⟩
  | .hbm, ⟨14, _⟩ => ⟨S_, .f32⟩
  | .hbm, ⟨15, _⟩ => ⟨S200000x32, .f32⟩
  | .hbm, ⟨16, _⟩ => ⟨S200000x32, .i1⟩
  | .hbm, ⟨17, _⟩ => ⟨S_, .f32⟩
  | .hbm, ⟨18, _⟩ => ⟨S200000x32, .f32⟩
  | .hbm, ⟨19, _⟩ => ⟨S200000x32, .i1⟩
  | .hbm, ⟨20, _⟩ => ⟨S_, .f32⟩
  | .hbm, ⟨21, _⟩ => ⟨S_, .f32⟩
  | .hbm, ⟨22, _⟩ => ⟨S200000x32, .f32⟩
  | .hbm, ⟨23, _⟩ => ⟨S200000x32, .f32⟩
  | .hbm, ⟨24, _⟩ => ⟨S200000x32, .f32⟩
  | .hbm, ⟨25, _⟩ => ⟨S_, .f32⟩
  | .hbm, ⟨26, _⟩ => ⟨S200000x32, .f32⟩
  | .hbm, ⟨27, _⟩ => ⟨S200000x32, .f32⟩
  | .hbm, ⟨28, _⟩ => ⟨S200000x32, .f32⟩
  | .hbm, ⟨29, _⟩ => ⟨S200000x128, .f32⟩
  | .hbm, ⟨30, _⟩ => ⟨S1x128, .f32⟩
  | .hbm, ⟨31, _⟩ => ⟨S200000x128, .f32⟩
  | .hbm, ⟨32, _⟩ => ⟨S200000x128, .f32⟩
  | _, _ => ⟨S200000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_call0_cst : Ref sig .tc := ⟨.hbm, 14, rfl⟩
abbrev main_call0_v0 : Ref sig .tc := ⟨.hbm, 15, rfl⟩
abbrev main_call0_v1 : Ref sig .tc := ⟨.hbm, 16, rfl⟩
abbrev main_call0_cst_0 : Ref sig .tc := ⟨.hbm, 17, rfl⟩
abbrev main_call0_v2 : Ref sig .tc := ⟨.hbm, 18, rfl⟩
abbrev main_call0_v3 : Ref sig .tc := ⟨.hbm, 19, rfl⟩
abbrev main_call0_cst_1 : Ref sig .tc := ⟨.hbm, 20, rfl⟩
abbrev main_call0_call0_v0 : Ref sig .tc := ⟨.hbm, 21, rfl⟩
abbrev main_call0_call0_v1 : Ref sig .tc := ⟨.hbm, 22, rfl⟩
abbrev main_call0_v4 : Ref sig .tc := ⟨.hbm, 23, rfl⟩
abbrev main_call0_v5 : Ref sig .tc := ⟨.hbm, 24, rfl⟩
abbrev main_call0_cst_2 : Ref sig .tc := ⟨.hbm, 25, rfl⟩
abbrev main_call0_v6 : Ref sig .tc := ⟨.hbm, 26, rfl⟩
abbrev main_call0_v7 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩

abbrev nD : Nat := 1
abbrev τ : Topo := Topo.v7x

variable {F : FTy → Type} [FloatOps F]

class Facts₀ : Prop where
  concatenates_S200000x512_S200000x512_S200000x256_S200000x1280_d1 : Shape.Concatenates [S200000x512, S200000x512, S200000x256] S200000x1280 1
  bcast_S32_S1x32_1 : S32.BroadcastsInDim S1x32 (![1] : Fin 1 → Fin S1x32.rank)
  bcast_S1x32_S200000x32_0_1 : S1x32.BroadcastsInDim S200000x32 (![0, 1] : Fin 2 → Fin S200000x32.rank)
  bcast_S_S200000x32 : S_.BroadcastsInDim S200000x32 (![] : Fin 0 → Fin S200000x32.rank)
  bcast_S128_S1x128_1 : S128.BroadcastsInDim S1x128 (![1] : Fin 1 → Fin S1x128.rank)
  bcast_S1x128_S200000x128_0_1 : S1x128.BroadcastsInDim S200000x128 (![0, 1] : Fin 2 → Fin S200000x128.rank)
  dot_S200000x1280_S1280x32_S200000x32_1_0_0_1_n_n_wf : DotDims.WF S200000x1280 S1280x32 S200000x32 [1] [0] [0] [1] [] []
  dot_S200000x32_S32x128_S200000x128_1_0_0_1_n_n_wf : DotDims.WF S200000x32 S32x128 S200000x128 [1] [0] [0] [1] [] []

variable [Facts₀]

def dot_S200000x1280_S1280x32_S200000x32_1_0_0_1_n_n : DotDims S200000x1280 S1280x32 S200000x32 where
  lhsContracting := [1]
  rhsContracting := [0]
  lhsNonContracting := [0]
  rhsNonContracting := [1]
  lhsBatch := []
  rhsBatch := []
  wf := dot_S200000x1280_S1280x32_S200000x32_1_0_0_1_n_n_wf
def dot_S200000x32_S32x128_S200000x128_1_0_0_1_n_n : DotDims S200000x32 S32x128 S200000x128 where
  lhsContracting := [1]
  rhsContracting := [0]
  lhsNonContracting := [0]
  rhsNonContracting := [1]
  lhsBatch := []
  rhsBatch := []
  wf := dot_S200000x32_S32x128_S200000x128_1_0_0_1_n_n_wf

class Facts : Prop extends Facts₀ where

variable [Facts]
-- ==== Proof.Spec.lean ====
/-
  The function both programs compute, entry by entry, on the extended reals.

  An edge's features are three groups: 512 numbers of its source node, 512 of its destination node, 256 of its own.
  The first linear layer has 1280 = 512 + 512 + 256 input rows, one band of rows per group, so the hidden
  pre-activation of edge `r` at unit `c` is the sum of the three groups each against its own band, plus the bias:

      pre r c = ∑_{k<512} src[r,k]·W1[k,c] + ∑_{k<512} dest[r,k]·W1[512+k,c] + ∑_{k<256} edge[r,k]·W1[1024+k,c] + b1[c].

  The activation is ELU with unit slope: `h` where `h > 0`, `exp h − 1` elsewhere. The second layer is
  `out r q = ∑_{c<32} elu (pre r c)·W2[c,q] + b2[q]`.

  Nothing here needs the inputs to be finite: the only laws used to meet this form are regroupings of sums.
-/
import Idealize.ShloMosaic.PureOps.Ideal
import Idealize.ShloMosaic.PureOps.Ideal.Laws
import Idealize.ShloMosaic.Lib.ValueIdx

noncomputable section

open scoped BigOperators

namespace Cert.EdgeMlp

open Idealize.ShloMosaic Idealize.ShloMosaic.ValueIdx

/-- The hidden pre-activation of edge `r` at unit `c`: each feature group against its band of rows of the first
    weight matrix (rows `0…511`, `512…1023`, `1024…1279`), then the bias. -/
def pre (a0 a1 : FVec Ideal ⟨2, ![200000, 512]⟩ .f32) (a2 : FVec Ideal ⟨2, ![200000, 256]⟩ .f32)
    (a5 : FVec Ideal ⟨2, ![1280, 32]⟩ .f32) (a6 : FVec Ideal ⟨1, ![32]⟩ .f32) (r : Fin 200000) (c : Fin 32) : EReal :=
  (∑ k : Fin 512, a0 (ix2 r k) * a5 (ix2 (⟨k.val, by omega⟩ : Fin 1280) c))
    + (∑ k : Fin 512, a1 (ix2 r k) * a5 (ix2 (⟨512 + k.val, by omega⟩ : Fin 1280) c))
    + (∑ k : Fin 256, a2 (ix2 r k) * a5 (ix2 (⟨1024 + k.val, by omega⟩ : Fin 1280) c))
    + a6 (ix1 c)

/-- ELU with unit slope on the extended reals: the argument itself where it is above zero, `exp h − 1` elsewhere.
    The zero and the one are the f32 words the programs write for them. -/
def elu (h : EReal) : EReal :=
  Scalar.select (FloatOps.cmpf (F := Ideal) (φ := .f32) .ogt h (Ideal.ofBits .f32 0x00000000#32)) h
    (Ideal.exp h - Ideal.ofBits .f32 0x3F800000#32)

/-- The output of edge `r` at column `q`: the activated hidden row against column `q` of the second weight
    matrix, plus the second bias. -/
def outAt (a0 a1 : FVec Ideal ⟨2, ![200000, 512]⟩ .f32) (a2 : FVec Ideal ⟨2, ![200000, 256]⟩ .f32)
    (a5 : FVec Ideal ⟨2, ![1280, 32]⟩ .f32) (a6 : FVec Ideal ⟨1, ![32]⟩ .f32)
    (a7 : FVec Ideal ⟨2, ![32, 128]⟩ .f32) (a8 : FVec Ideal ⟨1, ![128]⟩ .f32) (r : Fin 200000) (q : Fin 128) : EReal :=
  (∑ c : Fin 32, elu (pre a0 a1 a2 a5 a6 r c) * a7 (ix2 c q)) + a8 (ix1 q)

/-- The whole output array. -/
def out (a0 a1 : FVec Ideal ⟨2, ![200000, 512]⟩ .f32) (a2 : FVec Ideal ⟨2, ![200000, 256]⟩ .f32)
    (a5 : FVec Ideal ⟨2, ![1280, 32]⟩ .f32) (a6 : FVec Ideal ⟨1, ![32]⟩ .f32)
    (a7 : FVec Ideal ⟨2, ![32, 128]⟩ .f32) (a8 : FVec Ideal ⟨1, ![128]⟩ .f32) : FVec Ideal ⟨2, ![200000, 128]⟩ .f32 :=
  fun i => outAt a0 a1 a2 a5 a6 a7 a8 (i 0) (i 1)

/-- The array at the index of coordinates `(r, q)`. -/
theorem out_ix2 (a0 a1 : FVec Ideal ⟨2, ![200000, 512]⟩ .f32) (a2 : FVec Ideal ⟨2, ![200000, 256]⟩ .f32)
    (a5 : FVec Ideal ⟨2, ![1280, 32]⟩ .f32) (a6 : FVec Ideal ⟨1, ![32]⟩ .f32)
    (a7 : FVec Ideal ⟨2, ![32, 128]⟩ .f32) (a8 : FVec Ideal ⟨1, ![128]⟩ .f32) (r : Fin 200000) (q : Fin 128) :
    out a0 a1 a2 a5 a6 a7 a8 (ix2 r q) = outAt a0 a1 a2 a5 a6 a7 a8 r q := rfl

/-- The f32 word of `1.0` is the real one. -/
theorem one_word : Ideal.ofBits .f32 0x3F800000#32 = 1 := IdealRules.sign_bit.ideal_onePat .f32

end Cert.EdgeMlp

end
-- ==== Proof.LibPlainMatmul.lean ====
/-
  The plain matrix product on the extended reals, read at one entry.

  A matrix unit's product of an `m × k` by a `k × n` array (rows against columns, no batch axis), accumulated into the
  zero array, holds at entry `(a, b)` the sum over the contracted position `c` of `A[a,c] · B[c,b]`. The contraction's
  index set has one axis; it is re-indexed by its one coordinate, and the operands' indices at output entry `(a, b)`
  and contraction position `c` are named by their coordinates, axis by axis: a free axis reads the output's
  coordinate, the contracted axis reads `c`.
-/
import Idealize.ShloMosaic.PureOps.Ideal.Laws
import Idealize.ShloMosaic.Lib.ValueIdx

noncomputable section

open scoped BigOperators

namespace Idealize.ShloMosaic.PlainMatmul

open Idealize.ShloMosaic Idealize.ShloMosaic.ValueIdx

variable {m k n : Nat}

/-- The left operand's row coordinate is the output's row coordinate. -/
theorem lhs_row (i : (⟨2, ![m, n]⟩ : Shape).Idx) (q : (DotDims.plain m k n).contr.Idx) :
    ((DotDims.plain m k n).lhsIdx i q 0).val = (i 0).val := by
  unfold DotDims.lhsIdx
  rw [dif_neg (show ¬(0 : Fin (⟨2, ![m, k]⟩ : Shape).rank) ∈ (DotDims.plain m k n).lhsBatch from List.not_mem_nil),
    dif_pos (show (0 : Fin (⟨2, ![m, k]⟩ : Shape).rank) ∈ (DotDims.plain m k n).lhsNonContracting from List.mem_singleton.mpr rfl)]
  rfl

/-- The left operand's column coordinate is the contraction position. -/
theorem lhs_col (i : (⟨2, ![m, n]⟩ : Shape).Idx) (q : (DotDims.plain m k n).contr.Idx) :
    ((DotDims.plain m k n).lhsIdx i q 1).val = (q ⟨0, (Nat.one_pos : 0 < 1)⟩).val :=
  (DotDims.plain m k n).lhsIdx_val_of_single rfl i q

/-- The right operand's row coordinate is the contraction position. -/
theorem rhs_row (i : (⟨2, ![m, n]⟩ : Shape).Idx) (q : (DotDims.plain m k n).contr.Idx) :
    ((DotDims.plain m k n).rhsIdx i q 0).val = (q ⟨0, (Nat.one_pos : 0 < 1)⟩).val :=
  (DotDims.plain m k n).rhsIdx_val_of_single rfl i q

/-- The right operand's column coordinate is the output's column coordinate. -/
theorem rhs_col (i : (⟨2, ![m, n]⟩ : Shape).Idx) (q : (DotDims.plain m k n).contr.Idx) :
    ((DotDims.plain m k n).rhsIdx i q 1).val = (i 1).val := by
  unfold DotDims.rhsIdx
  rw [dif_neg (show ¬(1 : Fin (⟨2, ![k, n]⟩ : Shape).rank) ∈ (DotDims.plain m k n).rhsBatch from List.not_mem_nil),
    dif_pos (show (1 : Fin (⟨2, ![k, n]⟩ : Shape).rank) ∈ (DotDims.plain m k n).rhsNonContracting from List.mem_singleton.mpr rfl)]
  rfl

/-- **The plain product into the zero accumulator at an entry**: `∑ c, A[a,c] · B[c,b]`, at the ideal values,
    whatever the operands' formats and the precision key. -/
theorem matmul_zero_apply {φ₁ φ₂ : FTy} (prec : Option ContractPrecision)
    (A : FVec Ideal ⟨2, ![m, k]⟩ φ₁) (B : FVec Ideal ⟨2, ![k, n]⟩ φ₂) (a : Fin m) (b : Fin n) :
    FloatOps.matmul (DotDims.plain m k n) prec A B (constant ⟨2, ![m, n]⟩ .f32 0x00000000#32) (ix2 a b)
      = ∑ c : Fin k, A (ix2 a c) * B (ix2 c b) := by
  rw [Ideal.matmul_constant_zero_apply, ← Equiv.sum_comp (contrEquiv1 (DotDims.plain m k n) k rfl rfl).symm]
  refine Finset.sum_congr rfl fun c _ => ?_
  have hc := contrEquiv1_symm_val (DotDims.plain m k n) k rfl rfl c
  have el : (DotDims.plain m k n).lhsIdx (ix2 a b) ((contrEquiv1 (DotDims.plain m k n) k rfl rfl).symm c) = ix2 a c :=
    funext fun ax => Fin.ext (by
      match ax with
      | ⟨0, _⟩ => exact lhs_row _ _
      | ⟨1, _⟩ => exact (lhs_col _ _).trans hc)
  have er : (DotDims.plain m k n).rhsIdx (ix2 a b) ((contrEquiv1 (DotDims.plain m k n) k rfl rfl).symm c) = ix2 c b :=
    funext fun ax => Fin.ext (by
      match ax with
      | ⟨0, _⟩ => exact (rhs_row _ _).trans hc
      | ⟨1, _⟩ => exact rhs_col _ _)
  rw [el, er]

end Idealize.ShloMosaic.PlainMatmul

end
-- ==== Proof.KernelEntry.lean ====
/-
  One grid point's block of the kernel's output, entry by entry.

  The body loads a 2000-row block of each feature group, the three bands of the first weight matrix, the two biases
  (each as one row) and the second weight matrix, and stores one 2000 × 128 block. Entry `(p, q)` of that block is

      ∑_{c<32} elu (pre p c) · W2[c,q] + b2[q],
      pre p c = ∑_{k<512} S[p,k]·A[k,c] + ∑_{k<512} D[p,k]·B[k,c] + ∑_{k<256} E[p,k]·C[k,c] + b1[c],

  with `S, D, E` the three feature blocks and `A, B, C` the three bands: each matrix product is into the zero
  accumulator, the changes of float format are the identity on the extended reals, and a bias row broadcast over
  the 2000 rows reads its one row.
-/
import proofs.«142949_j86535001080076_1_alg».proof.Proof.Gen.KernelIdeal.Value
import proofs.«142949_j86535001080076_1_alg».proof.Proof.Spec
import proofs.«142949_j86535001080076_1_alg».proof.Proof.LibPlainMatmul
import Idealize.ShloMosaic.Lib.Pipeline.Value
import Idealize.ShloMosaic.Lib.ValueLayout

noncomputable section

open scoped BigOperators

namespace Cert.KernelIdeal.Block

open Cert.KernelIdeal Cert.KernelIdeal.Gen Idealize.ShloMosaic Idealize.ShloMosaic.ValueIdx

/-- The hidden pre-activation of row `p` of a block at unit `c`, from the loaded blocks. -/
def blockPre (P0 P1 : Vec Ideal S2000x512 .f32) (P2 : Vec Ideal S2000x256 .f32) (P3 P4 : Vec Ideal S512x32 .f32)
    (P5 : Vec Ideal S256x32 .f32) (P6 : Vec Ideal S1x32 .f32) (p : Fin 2000) (c : Fin 32) : EReal :=
  (∑ k : Fin 512, P0 (ix2 p k) * P3 (ix2 k c)) + (∑ k : Fin 512, P1 (ix2 p k) * P4 (ix2 k c))
    + (∑ k : Fin 256, P2 (ix2 p k) * P5 (ix2 k c)) + P6 (ix2 (0 : Fin 1) c)

/-- The body's ELU — a select on `h > 0` between `h` and `exp h − 1`, then the change of format — at an entry. -/
theorem elu_entry (X : FVec Ideal S2000x32 .f32) (h : FTy.bits .bf16 < FTy.bits .f32) (i : S2000x32.Idx) :
    (truncf .bf16 (select (cmpf .ogt X (broadcast S2000x32 (Scalar.ofBits (F := Ideal) .f32 0x00000000#32))) X
      (subf (exp X) (broadcast S2000x32 (Scalar.ofBits (F := Ideal) .f32 0x3F800000#32)))) h) i = Cert.EdgeMlp.elu (X i) := rfl

/-- The second matrix product's payload at entry `(p, q)`. -/
theorem pay2_entry (P0 P1 : Vec Ideal S2000x512 .f32) (P2 : Vec Ideal S2000x256 .f32) (P3 P4 : Vec Ideal S512x32 .f32)
    (P5 : Vec Ideal S256x32 .f32) (P6 : Vec Ideal S1x32 .f32) (P7 : Vec Ideal S32x128 .f32) (p : Fin 2000) (q : Fin 128) :
    k0_pay2 (F := Ideal) P0 P1 P2 P3 P4 P5 P6 P7 (ix2 p q)
      = ∑ c : Fin 32, Cert.EdgeMlp.elu (blockPre P0 P1 P2 P3 P4 P5 P6 p c) * P7 (ix2 c q) := by
  unfold k0_pay2
  refine (PlainMatmul.matmul_zero_apply none _ _ p q).trans ?_
  refine Finset.sum_congr rfl fun c _ => ?_
  refine congrArg (· * P7 (ix2 c q)) ?_
  refine (elu_entry _ _ _).trans (congrArg Cert.EdgeMlp.elu ?_)
  unfold blockPre
  rw [addf_apply, addf_apply, addf_apply]
  refine congrArg₂ (· + ·) (congrArg₂ (· + ·) (congrArg₂ (· + ·) ?_ ?_) ?_) ?_
  · refine (PlainMatmul.matmul_zero_apply none _ _ p c).trans (Finset.sum_congr rfl fun k _ => ?_)
    exact congrArg (P0 (ix2 p k) * ·) (congrFun (shapeCast_self P3 shapeCasts_S512x32_S512x32) (ix2 k c))
  · refine (PlainMatmul.matmul_zero_apply none _ _ p c).trans (Finset.sum_congr rfl fun k _ => ?_)
    exact congrArg (P1 (ix2 p k) * ·) (congrFun (shapeCast_self P4 shapeCasts_S512x32_S512x32) (ix2 k c))
  · refine (PlainMatmul.matmul_zero_apply none _ _ p c).trans (Finset.sum_congr rfl fun k _ => ?_)
    exact congrArg (P2 (ix2 p k) * ·) (congrFun (shapeCast_self P5 shapeCasts_S256x32_S256x32) (ix2 k c))
  · exact (broadcastTo_1b_ab_apply _ broadcasts_S1x32_S2000x32 p c).trans
      (congrFun (shapeCast_self P6 shapeCasts_S1x32_S1x32) (ix2 (0 : Fin 1) c))

/-- Where entry `(p, q)` of the block reads the second product: at `(p, q)` itself. -/
theorem ix9_0_ix2 (p : Fin 2000) (q : Fin 128) : Value.ix9_0 (ix2 p q : S2000x128.Idx) = ix2 p q :=
  funext fun a => match a with | ⟨0, _⟩ => rfl | ⟨1, _⟩ => rfl

/-- Where it reads the second bias: its one row, at `q`. -/
theorem ix9_1_ix2 (p : Fin 2000) (q : Fin 128) : Value.ix9_1 (ix2 p q : S2000x128.Idx) = ix2 (0 : Fin 1) q :=
  funext fun a => match a with | ⟨0, _⟩ => rfl | ⟨1, _⟩ => rfl

/-- **Entry `(p, q)` of the stored block**, from the loaded blocks. -/
theorem block_entry (P0 P1 : Vec Ideal S2000x512 .f32) (P2 : Vec Ideal S2000x256 .f32) (P3 P4 : Vec Ideal S512x32 .f32)
    (P5 : Vec Ideal S256x32 .f32) (P6 : Vec Ideal S1x32 .f32) (P7 : Vec Ideal S32x128 .f32) (P8 : Vec Ideal S1x128 .f32)
    (p : Fin 2000) (q : Fin 128) :
    Value.E9 (F := Ideal) P0 P1 P2 P3 P4 P5 P6 P7 P8 (ix2 p q)
      = (∑ c : Fin 32, Cert.EdgeMlp.elu (blockPre P0 P1 P2 P3 P4 P5 P6 p c) * P7 (ix2 c q)) + P8 (ix2 (0 : Fin 1) q) := by
  show k0_pay2 (F := Ideal) P0 P1 P2 P3 P4 P5 P6 P7 (Value.ix9_0 (ix2 p q)) + P8 (Value.ix9_1 (ix2 p q)) = _
  rw [ix9_0_ix2, ix9_1_ix2, pay2_entry]

/-- **A block is a block of the whole output.** Let the loaded blocks be what the arrays hold under them: the three
    feature blocks are rows `o … o+1999` of the feature arrays, the three weight blocks are the bands of rows
    `0…`, `512…`, `1024…` of the first weight matrix, the bias rows are the bias vectors, the last weight block is
    the second weight matrix. Then the stored block at `y` is the output function at the array index `i` that sits
    `o` rows further down: sum by sum, the same terms. -/
theorem block_is_out (a0 a1 : FVec Ideal S200000x512 .f32) (a2 : FVec Ideal S200000x256 .f32)
    (a5 : FVec Ideal S1280x32 .f32) (a6 : FVec Ideal S32 .f32) (a7 : FVec Ideal S32x128 .f32) (a8 : FVec Ideal S128 .f32)
    (x0 x1 : Vec Ideal S2000x512 .f32) (x2 : Vec Ideal S2000x256 .f32) (x3 x4 : Vec Ideal S512x32 .f32)
    (x5 : Vec Ideal S256x32 .f32) (x6 : Vec Ideal S1x32 .f32) (x7 : Vec Ideal S32x128 .f32) (x8 : Vec Ideal S1x128 .f32)
    (o : Nat) (ho : o + 2000 ≤ 200000)
    (h0 : ∀ (p : Fin 2000) (k : Fin 512), x0 (ix2 p k) = a0 (ix2 (⟨o + p.val, by omega⟩ : Fin 200000) k))
    (h1 : ∀ (p : Fin 2000) (k : Fin 512), x1 (ix2 p k) = a1 (ix2 (⟨o + p.val, by omega⟩ : Fin 200000) k))
    (h2 : ∀ (p : Fin 2000) (k : Fin 256), x2 (ix2 p k) = a2 (ix2 (⟨o + p.val, by omega⟩ : Fin 200000) k))
    (h3 : ∀ (k : Fin 512) (c : Fin 32), x3 (ix2 k c) = a5 (ix2 (⟨k.val, by omega⟩ : Fin 1280) c))
    (h4 : ∀ (k : Fin 512) (c : Fin 32), x4 (ix2 k c) = a5 (ix2 (⟨512 + k.val, by omega⟩ : Fin 1280) c))
    (h5 : ∀ (k : Fin 256) (c : Fin 32), x5 (ix2 k c) = a5 (ix2 (⟨1024 + k.val, by omega⟩ : Fin 1280) c))
    (h6 : ∀ c : Fin 32, x6 (ix2 (0 : Fin 1) c) = a6 (ix1 c))
    (h7 : ∀ (c : Fin 32) (q : Fin 128), x7 (ix2 c q) = a7 (ix2 c q))
    (h8 : ∀ q : Fin 128, x8 (ix2 (0 : Fin 1) q) = a8 (ix1 q))
    (y : S2000x128.Idx) (i : S200000x128.Idx) (hi0 : (i 0).val = o + (y 0).val) (hi1 : (i 1).val = (y 1).val) :
    Value.E9 (F := Ideal) x0 x1 x2 x3 x4 x5 x6 x7 x8 y = Cert.EdgeMlp.out a0 a1 a2 a5 a6 a7 a8 i := by
  obtain ⟨p, q, rfl⟩ : ∃ (p : Fin 2000) (q : Fin 128), y = ix2 p q := ⟨y 0, y 1, eq_ix2 y⟩
  obtain ⟨r, q', rfl⟩ : ∃ (r : Fin 200000) (q' : Fin 128), i = ix2 r q' := ⟨i 0, i 1, eq_ix2 i⟩
  have hr : r = (⟨o + p.val, Nat.lt_of_lt_of_le (Nat.add_lt_add_left p.isLt o) ho⟩ : Fin 200000) := Fin.ext hi0
  have hq : q' = q := Fin.ext hi1
  subst hr hq
  rw [block_entry, Cert.EdgeMlp.out_ix2]
  unfold Cert.EdgeMlp.outAt
  refine congrArg₂ (· + ·) (Finset.sum_congr rfl fun c _ => ?_) (h8 q')
  rw [h7 c q']
  refine congrArg (· * a7 (ix2 c q')) (congrArg Cert.EdgeMlp.elu ?_)
  unfold blockPre Cert.EdgeMlp.pre
  refine congrArg₂ (· + ·) (congrArg₂ (· + ·) (congrArg₂ (· + ·) ?_ ?_) ?_) (h6 c)
  · exact Finset.sum_congr rfl fun k _ => by rw [h0 p k, h3 k c]
  · exact Finset.sum_congr rfl fun k _ => by rw [h1 p k, h4 k c]
  · exact Finset.sum_congr rfl fun k _ => by rw [h2 p k, h5 k c]

end Cert.KernelIdeal.Block

end
-- ==== Proof.KernelArray.lean ====
/-
  From one grid point's block to the whole output array of the kernel.

  The grid has 100 points; point `t` works on rows `2000·t … 2000·t + 1999`. Its three feature windows are those
  rows of the three feature arrays, its output window those rows of the output; the weight and bias windows are
  whole arrays at every point. Before the grid runs, the program cuts the first weight matrix into its three bands
  of rows (`0…511`, `512…1023`, `1024…1279`) and lays each bias out as one row. So what point `t` writes back is
  rows `2000·t …` of the output function of the argument arrays, and since the 100 row blocks tile the 200000 rows,
  the output array ends holding that function everywhere.
-/
import proofs.«142949_j86535001080076_1_alg».proof.Proof.KernelEntry
import Idealize.ShloMosaic.Lib.StableHlo.Run

noncomputable section

namespace Cert.KernelIdeal.Whole

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The output function of the argument arrays as core `c` holds them. -/
abbrev outArr (c : Dev nD) : S200000x128.Idx → EReal :=
  Cert.EdgeMlp.out (m ((c : Thread nD τ).loc main_arg0)) (m ((c : Thread nD τ).loc main_arg1)) (m ((c : Thread nD τ).loc main_arg2))
    (m ((c : Thread nD τ).loc main_arg5)) (m ((c : Thread nD τ).loc main_arg6)) (m ((c : Thread nD τ).loc main_arg7)) (m ((c : Thread nD τ).loc main_arg8))

/-! ## The arrays the program lays out before the grid runs -/

/-- The first band of the first weight matrix: its rows `0 … 511`. -/
theorem V_band0 (c : Dev nD) : (V m c main_v0 : S512x32.Idx → EReal)
    = extractStridedSlice S512x32 ![0, 0] (m ((c : Thread nD τ).loc main_arg5)) slices_S1280x32_S512x32_0_0 := by
  dsimp only [Gen.V, Gen.hostOps0]; after_results

/-- The second band: rows `512 … 1023`. -/
theorem V_band1 (c : Dev nD) : (V m c main_v1 : S512x32.Idx → EReal)
    = extractStridedSlice S512x32 ![512, 0] (m ((c : Thread nD τ).loc main_arg5)) slices_S1280x32_S512x32_512_0 := by
  dsimp only [Gen.V, Gen.hostOps0]; after_results

/-- The third band: rows `1024 … 1279`. -/
theorem V_band2 (c : Dev nD) : (V m c main_v2 : S256x32.Idx → EReal)
    = extractStridedSlice S256x32 ![1024, 0] (m ((c : Thread nD τ).loc main_arg5)) slices_S1280x32_S256x32_1024_0 := by
  dsimp only [Gen.V, Gen.hostOps0]; after_results

/-- The first bias as one row. -/
theorem V_bias1 (c : Dev nD) : (V m c main_v3 : S1x32.Idx → EReal)
    = shapeCast S1x32 (m ((c : Thread nD τ).loc main_arg6)) shapeCasts_S32_S1x32 := by
  dsimp only [Gen.V, Gen.hostOps0]; after_results; rfl

/-- The second bias as one row. -/
theorem V_bias2 (c : Dev nD) : (V m c main_v4 : S1x128.Idx → EReal)
    = shapeCast S1x128 (m ((c : Thread nD τ).loc main_arg8)) shapeCasts_S128_S1x128 := by
  dsimp only [Gen.V, Gen.hostOps0]; after_results; rfl

/-! ## Where each window's block sits, decided over the 100 points -/

/-- The three feature windows move down the rows with the output window; every window's column block is the
    first; the weight and bias windows stay at their one block; the output's row block is below 100. -/
theorem idx_facts : ∀ t : Fin cfg0.N,
    win0_0.index t (0 : Fin 2) = win0_9.index t (0 : Fin 2) ∧ win0_0.index t (1 : Fin 2) = 0
    ∧ win0_1.index t (0 : Fin 2) = win0_9.index t (0 : Fin 2) ∧ win0_1.index t (1 : Fin 2) = 0
    ∧ win0_2.index t (0 : Fin 2) = win0_9.index t (0 : Fin 2) ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (1 : Fin 2) = 0 ∧ win0_9.index t (0 : Fin 2) ≤ 99 :=
  (by decide +kernel : ∀ t : Fin grid0.N, _)

/-- Every row block of the output is some point's. -/
theorem idx_onto : ∀ q0 : Fin 100, ∃ t : Fin cfg0.N, win0_9.index t = ![q0.val, 0] :=
  (by decide +kernel : ∀ q0 : Fin 100, ∃ t : Fin grid0.N, win0_9.index t = ![q0.val, 0])

/-! ## What a point writes back -/

/-- Point `t` writes back rows `2000·t …` of the output function. -/
theorem flushed_eq (c : Dev nD) (t : Fin cfg0.N) :
    (dats m 0 c).flushed 9 t = ((cfg0.win 9).blk t).view.read (Elt Ideal) (outArr m c) := by
  rw [Value.flushed9]
  unfold out0_9
  simp only [View.ld_unit_zero (S := S2000x512) hz, View.ld_unit_zero (S := S2000x256) hz,
    View.ld_unit_zero (S := S512x32) hz, View.ld_unit_zero (S := S256x32) hz, View.ld_unit_zero (S := S1x32) hz,
    View.ld_unit_zero (S := S32x128) hz, View.ld_unit_zero (S := S1x128) hz]
  obtain ⟨e00, e01, e10, e11, e20, e21, e30, e31, e40, e41, e50, e51, e60, e61, e70, e71, e80, e81, e91, e9b⟩ := idx_facts t
  funext y
  show _ = outArr m c (((cfg0.win 9).blk t).view.emb y)
  refine (Value.canon9_eq (iblk m c 0 t) (iblk m c 1 t) (iblk m c 2 t) (iblk m c 3 t) (iblk m c 4 t) (iblk m c 5 t) (iblk m c 6 t) (iblk m c 7 t) (iblk m c 8 t) y).trans ?_
  refine Block.block_is_out (m ((c : Thread nD τ).loc main_arg0)) (m ((c : Thread nD τ).loc main_arg1)) (m ((c : Thread nD τ).loc main_arg2)) (m ((c : Thread nD τ).loc main_arg5))
    (m ((c : Thread nD τ).loc main_arg6)) (m ((c : Thread nD τ).loc main_arg7)) (m ((c : Thread nD τ).loc main_arg8))
    (iblk m c 0 t) (iblk m c 1 t) (iblk m c 2 t) (iblk m c 3 t) (iblk m c 4 t) (iblk m c 5 t) (iblk m c 6 t) (iblk m c 7 t) (iblk m c 8 t)
    (win0_9.index t (0 : Fin 2) * 2000) (by omega) ?h0 ?h1 ?h2 ?h3 ?h4 ?h5 ?h6 ?h7 ?h8 y (((cfg0.win 9).blk t).view.emb y) ?hi0 ?hi1
  case h0 =>
    intro p k
    show V m c main_arg0 (((cfg0.win 0).blk t).view.emb (ix2 p k)) = _
    rw [V_main_arg0]
    refine congrArg (m ((c : Thread nD τ).loc main_arg0)) (funext fun a => Fin.ext ?_)
    match a with
    | ⟨0, _⟩ => show win0_0.index t (0 : Fin 2) * 2000 + 1 * p.val = win0_9.index t (0 : Fin 2) * 2000 + p.val; omega
    | ⟨1, _⟩ => show win0_0.index t (1 : Fin 2) * 512 + 1 * k.val = k.val; omega
  case h1 =>
    intro p k
    show V m c main_arg1 (((cfg0.win 1).blk t).view.emb (ix2 p k)) = _
    rw [V_main_arg1]
    refine congrArg (m ((c : Thread nD τ).loc main_arg1)) (funext fun a => Fin.ext ?_)
    match a with
    | ⟨0, _⟩ => show win0_1.index t (0 : Fin 2) * 2000 + 1 * p.val = win0_9.index t (0 : Fin 2) * 2000 + p.val; omega
    | ⟨1, _⟩ => show win0_1.index t (1 : Fin 2) * 512 + 1 * k.val = k.val; omega
  case h2 =>
    intro p k
    show V m c main_arg2 (((cfg0.win 2).blk t).view.emb (ix2 p k)) = _
    rw [V_main_arg2]
    refine congrArg (m ((c : Thread nD τ).loc main_arg2)) (funext fun a => Fin.ext ?_)
    match a with
    | ⟨0, _⟩ => show win0_2.index t (0 : Fin 2) * 2000 + 1 * p.val = win0_9.index t (0 : Fin 2) * 2000 + p.val; omega
    | ⟨1, _⟩ => show win0_2.index t (1 : Fin 2) * 256 + 1 * k.val = k.val; omega
  case h3 =>
    intro k u
    show V m c main_v0 (((cfg0.win 3).blk t).view.emb (ix2 k u)) = _
    rw [V_band0 m c]
    refine extractStridedSlice_apply _ _ _ _ _ (fun a => ?_)
    match a with
    | ⟨0, _⟩ => show k.val = 0 + (win0_3.index t (0 : Fin 2) * 512 + 1 * k.val); omega
    | ⟨1, _⟩ => show u.val = 0 + (win0_3.index t (1 : Fin 2) * 32 + 1 * u.val); omega
  case h4 =>
    intro k u
    show V m c main_v1 (((cfg0.win 4).blk t).view.emb (ix2 k u)) = _
    rw [V_band1 m c]
    refine extractStridedSlice_apply _ _ _ _ _ (fun a => ?_)
    match a with
    | ⟨0, _⟩ => show 512 + k.val = 512 + (win0_4.index t (0 : Fin 2) * 512 + 1 * k.val); omega
    | ⟨1, _⟩ => show u.val = 0 + (win0_4.index t (1 : Fin 2) * 32 + 1 * u.val); omega
  case h5 =>
    intro k u
    show V m c main_v2 (((cfg0.win 5).blk t).view.emb (ix2 k u)) = _
    rw [V_band2 m c]
    refine extractStridedSlice_apply _ _ _ _ _ (fun a => ?_)
    match a with
    | ⟨0, _⟩ => show 1024 + k.val = 1024 + (win0_5.index t (0 : Fin 2) * 256 + 1 * k.val); omega
    | ⟨1, _⟩ => show u.val = 0 + (win0_5.index t (1 : Fin 2) * 32 + 1 * u.val); omega
  case h6 =>
    intro u
    show V m c main_v3 (((cfg0.win 6).blk t).view.emb (ix2 (0 : Fin 1) u)) = _
    rw [V_bias1 m c]
    refine (congrArg _ (?_ : _ = ix2 (0 : Fin 1) u)).trans (shapeCast_a_1a_apply _ shapeCasts_S32_S1x32 (0 : Fin 1) u)
    funext a; apply Fin.ext
    match a with
    | ⟨0, _⟩ => show win0_6.index t (0 : Fin 2) * 1 + 1 * 0 = 0; omega
    | ⟨1, _⟩ => show win0_6.index t (1 : Fin 2) * 32 + 1 * u.val = u.val; omega
  case h7 =>
    intro u q
    show V m c main_arg7 (((cfg0.win 7).blk t).view.emb (ix2 u q)) = _
    rw [V_main_arg7]
    refine congrArg (m ((c : Thread nD τ).loc main_arg7)) (funext fun a => Fin.ext ?_)
    match a with
    | ⟨0, _⟩ => show win0_7.index t (0 : Fin 2) * 32 + 1 * u.val = u.val; omega
    | ⟨1, _⟩ => show win0_7.index t (1 : Fin 2) * 128 + 1 * q.val = q.val; omega
  case h8 =>
    intro q
    show V m c main_v4 (((cfg0.win 8).blk t).view.emb (ix2 (0 : Fin 1) q)) = _
    rw [V_bias2 m c]
    refine (congrArg _ (?_ : _ = ix2 (0 : Fin 1) q)).trans (shapeCast_a_1a_apply _ shapeCasts_S128_S1x128 (0 : Fin 1) q)
    funext a; apply Fin.ext
    match a with
    | ⟨0, _⟩ => show win0_8.index t (0 : Fin 2) * 1 + 1 * 0 = 0; omega
    | ⟨1, _⟩ => show win0_8.index t (1 : Fin 2) * 128 + 1 * q.val = q.val; omega
  case hi0 =>
    show win0_9.index t (0 : Fin 2) * 2000 + 1 * (y 0).val = win0_9.index t (0 : Fin 2) * 2000 + (y 0).val; omega
  case hi1 =>
    show win0_9.index t (1 : Fin 2) * 128 + 1 * (y 1).val = (y 1).val; omega

/-! ## The row blocks tile the output -/

/-- An index of the output is in point `t`'s block iff each coordinate is in the block's range on its axis. -/
theorem mem_blk (t : Fin cfg0.N) (i : S200000x128.Idx) :
    i ∈ ((cfg0.win 9).blk t).view.set ↔ ∀ a : Fin 2, win0_9.index t a * S2000x128.size a ≤ (i a).val ∧ (i a).val < win0_9.index t a * S2000x128.size a + S2000x128.size a := by
  show i ∈ ((View.whole main_v5).slice (win0_9.rect t)).set ↔ _
  rw [View.set_slice_whole, Rect.mem_set_unit]
  exact Iff.rfl

/-- Every index of the output is in the block of the point that works on its row: row `r` belongs to point `r / 2000`. -/
theorem cover (i : S200000x128.Idx) :
    ∃ t : Fin cfg0.N, (cfg0.win 9).flush t = true ∧ i ∈ ((cfg0.win 9).blk t).view.set := by
  have hi0 : (i 0).val < 200000 := (i 0).isLt
  have hi1 : (i 1).val < 128 := (i 1).isLt
  obtain ⟨t, ht⟩ := idx_onto ⟨(i 0).val / 2000, by omega⟩
  have q0 : win0_9.index t (0 : Fin 2) = (i 0).val / 2000 := congrFun ht 0
  have q1 : win0_9.index t (1 : Fin 2) = 0 := congrFun ht 1
  refine ⟨t, flush0_9 t, ?_⟩
  rw [mem_blk]
  intro a
  match a with
  | ⟨0, _⟩ => show win0_9.index t (0 : Fin 2) * 2000 ≤ (i 0).val ∧ (i 0).val < win0_9.index t (0 : Fin 2) * 2000 + 2000; omega
  | ⟨1, _⟩ => show win0_9.index t (1 : Fin 2) * 128 ≤ (i 1).val ∧ (i 1).val < win0_9.index t (1 : Fin 2) * 128 + 128; omega

/-- The output array after the run is the output function of the argument arrays. -/
theorem final (c : Dev nD) : (dats m 0 c).arrAt 9 cfg0.N = outArr m c :=
  (dats m 0 c).arrAt_eq_of_cover 9 (outArr m c) (fun t _ => flushed_eq m c t) cover

/-! ## The run -/

/-- Every weakly fair execution of the kernel's program terminates with the output array at the output function of
    the argument arrays, the arguments unchanged. -/
theorem run : θ_run defs (onTc (τ := τ) (main (F := Ideal))) ⟨m, fun _ => 0, ρ⟩ fun r => ∀ c : Dev nD,
      r.2.mem ((c : Thread nD τ).loc main_v5) = outArr m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h c).1.trans (final m c), (h c).2⟩) (Value.run_blocks m ρ)

end Cert.KernelIdeal.Whole

end
-- ==== Proof.LibNaryThree.lean ====
/-
  A host operation over a LITERAL family of three operands (a concatenation of three arrays), run over a valuation:
  its result is its function applied to the three operands' contents, each read at its own reference — the family
  `![x, a, b]` taken apart at the literals 0, 1, 2, so that each operand's contents can be rewritten further. (The
  library states this for four operands.)
-/
import Idealize.ShloMosaic.Lib.StableHlo.Run

noncomputable section

namespace Idealize.ShloMosaic.StableHlo

open Idealize.SL.Sem

variable {τ : Topo} {sig : RefSig} {Val : EltTy → Type}
variable {x a b y : Ref sig .tc}

/-- The result of an operation over the three operands `![x, a, b]`, at its result reference: its function at the
    operands' contents, operand `k`'s at the reference `k` names. -/
theorem nary3_result
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

end Idealize.ShloMosaic.StableHlo

end
-- ==== Proof.ReferenceLine.lean ====
/-
  The reference program's run, read back as one term.

  The reference is a straight line of array operations: the three feature arrays are laid side by side, multiplied
  by the first weight matrix, the first bias is added to every row, the activation is applied entry by entry, the
  result is multiplied by the second weight matrix and the second bias is added to every row. The activation is an
  outlined function which itself calls two outlined selections; a call's meaning is its body run on the operands,
  so the program is the list of all twenty-four operations in order, the callee's listed where the call stands.

  Run from any memory, the list ends with the result buffer holding the operations composed (`refOut` of the seven
  float arguments' launch contents) and every argument buffer holding what it held.
-/
import proofs.«142949_j86535001080076_1_alg».proof.Proof.Gen.ReferenceIdeal
import proofs.«142949_j86535001080076_1_alg».proof.Proof.LibNaryThree
import Idealize.ShloMosaic.Lib.StableHlo.Run

noncomputable section

namespace Cert.ReferenceIdeal.Line

open Cert.ReferenceIdeal Cert.ReferenceIdeal.Gen Idealize.ShloMosaic Idealize.ShloMosaic.TcCoe Idealize.SL.Sem Idealize.ShloMosaic.StableHlo

variable {F : FTy → Type} [FloatOps F]

/-! ## The composed term -/

/-- The hidden layer before the activation, as an array: the three feature arrays side by side (1280 columns)
    against the first weight matrix, plus the first bias repeated on every row. -/
def preArr (a0 a1 : FVec F S200000x512 .f32) (a2 : FVec F S200000x256 .f32) (a5 : FVec F S1280x32 .f32)
    (a6 : FVec F S32 .f32) : FVec F S200000x32 .f32 :=
  addf
    (Host.dotGeneral dot_S200000x1280_S1280x32_S200000x32_1_0_0_1_n_n none
      (concatenate S200000x1280 1 [⟨S200000x512, a0⟩, ⟨S200000x512, a1⟩, ⟨S200000x256, a2⟩]
        concatenates_S200000x512_S200000x512_S200000x256_S200000x1280_d1) a5)
    (broadcastInDim S200000x32 ![0, 1] bcast_S1x32_S200000x32_0_1 (broadcastInDim S1x32 ![1] bcast_S32_S1x32_1 a6))

/-- The zero the activation compares with and selects, repeated over the hidden array. -/
def zeroArr : FVec F S200000x32 .f32 :=
  broadcastInDim S200000x32 ![] bcast_S_S200000x32 (constant S_ .f32 0x00000000#32)

/-- The one the activation multiplies by, repeated over the hidden array. -/
def oneArr : FVec F S200000x32 .f32 :=
  broadcastInDim S200000x32 ![] bcast_S_S200000x32 (constant S_ .f32 0x3F800000#32)

/-- The activation as the program spells it, on a whole array `h`: where `h > 0` the entry itself, elsewhere
    `1 · expm1 (h where h ≤ 0, else 0)`. -/
def eluArr (h : FVec F S200000x32 .f32) : FVec F S200000x32 .f32 :=
  select (cmpf .ogt h zeroArr) h
    (mulf oneArr (Host.expm1 (select (cmpf .ogt h zeroArr) zeroArr h)))

/-- The reference's result as one term of its seven float arguments: the operations of the program, the
    activation's among them, composed. -/
def refOut (a0 a1 : FVec F S200000x512 .f32) (a2 : FVec F S200000x256 .f32) (a5 : FVec F S1280x32 .f32)
    (a6 : FVec F S32 .f32) (a7 : FVec F S32x128 .f32) (a8 : FVec F S128 .f32) : FVec F S200000x128 .f32 :=
  addf
    (Host.dotGeneral dot_S200000x32_S32x128_S200000x128_1_0_0_1_n_n none (eluArr (preArr a0 a1 a2 a5 a6)) a7)
    (broadcastInDim S200000x128 ![0, 1] bcast_S1x128_S200000x128_0_1 (broadcastInDim S1x128 ![1] bcast_S128_S1x128_1 a8))

/-! ## The program as a list of operations -/

/-- The program's twenty-four operations in order: five before the activation, the activation's fifteen (seven of
    its own, the first selection's three, four more of its own, the second selection's one), four after it. -/
abbrev ops : List (HloOp τ sig (Elt F)) :=
  [ nary ![main_arg0, main_arg1, main_arg2] main_v0 (fun u => concatenate S200000x1280 1 [⟨S200000x512, u 0⟩, ⟨S200000x512, u 1⟩, ⟨S200000x256, u 2⟩] concatenates_S200000x512_S200000x512_S200000x256_S200000x1280_d1),
    binary main_v0 main_arg5 main_v1 ((fun l r => Host.dotGeneral dot_S200000x1280_S1280x32_S200000x32_1_0_0_1_n_n none l r) : (⟨S200000x1280, .f32⟩ : BufTy).Contents (Elt F) → (⟨S1280x32, .f32⟩ : BufTy).Contents (Elt F) → (⟨S200000x32, .f32⟩ : BufTy).Contents (Elt F)),
    unary main_arg6 main_v2 (broadcastInDim S1x32 ![1] bcast_S32_S1x32_1 : (⟨S32, .f32⟩ : BufTy).Contents (Elt F) → (⟨S1x32, .f32⟩ : BufTy).Contents (Elt F)),
    unary main_v2 main_v3 (broadcastInDim S200000x32 ![0, 1] bcast_S1x32_S200000x32_0_1 : (⟨S1x32, .f32⟩ : BufTy).Contents (Elt F) → (⟨S200000x32, .f32⟩ : BufTy).Contents (Elt F)),
    binary main_v1 main_v3 main_v4 (addf : (⟨S200000x32, .f32⟩ : BufTy).Contents (Elt F) → (⟨S200000x32, .f32⟩ : BufTy).Contents (Elt F) → (⟨S200000x32, .f32⟩ : BufTy).Contents (Elt F)),
    TRef.nullary main_call0.cst (constant S_ .f32 0x00000000#32),
    TRef.unary main_call0.cst main_call0.v0 (broadcastInDim S200000x32 ![] bcast_S_S200000x32),
    TRef.binary (.of main_v4) main_call0.v0 main_call0.v1 (cmpf .ogt),
    TRef.nullary main_call0.cst_0 (constant S_ .f32 0x00000000#32),
    TRef.unary main_call0.cst_0 main_call0.v2 (broadcastInDim S200000x32 ![] bcast_S_S200000x32),
    TRef.binary (.of main_v4) main_call0.v2 main_call0.v3 (cmpf .ogt),
    TRef.nullary main_call0.cst_1 (constant S_ .f32 0x00000000#32),
    TRef.unary main_call0.cst_1 main_call0.call0.v0 id,
    TRef.unary main_call0.call0.v0 main_call0.call0.v1 (broadcastInDim S200000x32 ![] bcast_S_S200000x32),
    TRef.ternary main_call0.v3 main_call0.call0.v1 (.of main_v4) main_call0.call0.v2 select,
    TRef.unary main_call0.call0.v2 main_call0.v5 Host.expm1,
    TRef.nullary main_call0.cst_2 (constant S_ .f32 0x3F800000#32),
    TRef.unary main_call0.cst_2 main_call0.v6 (broadcastInDim S200000x32 ![] bcast_S_S200000x32),
    TRef.binary main_call0.v6 main_call0.v5 main_call0.v7 mulf,
    TRef.ternary main_call0.v1 (.of main_v4) main_call0.v7 main_call0.call1.v0 select,
    binary main_v5 main_arg7 main_v6 ((fun l r => Host.dotGeneral dot_S200000x32_S32x128_S200000x128_1_0_0_1_n_n none l r) : (⟨S200000x32, .f32⟩ : BufTy).Contents (Elt F) → (⟨S32x128, .f32⟩ : BufTy).Contents (Elt F) → (⟨S200000x128, .f32⟩ : BufTy).Contents (Elt F)),
    unary main_arg8 main_v7 (broadcastInDim S1x128 ![1] bcast_S128_S1x128_1 : (⟨S128, .f32⟩ : BufTy).Contents (Elt F) → (⟨S1x128, .f32⟩ : BufTy).Contents (Elt F)),
    unary main_v7 main_v8 (broadcastInDim S200000x128 ![0, 1] bcast_S1x128_S200000x128_0_1 : (⟨S1x128, .f32⟩ : BufTy).Contents (Elt F) → (⟨S200000x128, .f32⟩ : BufTy).Contents (Elt F)),
    binary main_v6 main_v8 main_v9 (addf : (⟨S200000x128, .f32⟩ : BufTy).Contents (Elt F) → (⟨S200000x128, .f32⟩ : BufTy).Contents (Elt F) → (⟨S200000x128, .f32⟩ : BufTy).Contents (Elt F)) ]

set_option maxRecDepth 1024 in
/-- The program is that straight line: the three outlined functions unfolded where they are called, both sides are
    one chain of steps once the sequencing is reassociated. -/
theorem main_eq (c : Dev nD) : main (F := F) c = seq ops := by
  simp only [main, fn_elu.body, fn_where.body, fn_where_0.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nary_bufs_sub .., binary_bufs_sub .., unary_bufs_sub .., unary_bufs_sub .., binary_bufs_sub ..,
    nullary_bufs_sub .., unary_bufs_sub .., binary_bufs_sub .., nullary_bufs_sub .., unary_bufs_sub .., binary_bufs_sub ..,
    nullary_bufs_sub .., unary_bufs_sub .., unary_bufs_sub .., ternary_bufs_sub .., unary_bufs_sub .., nullary_bufs_sub ..,
    unary_bufs_sub .., binary_bufs_sub .., ternary_bufs_sub ..,
    binary_bufs_sub .., unary_bufs_sub .., unary_bufs_sub .., binary_bufs_sub ..⟩

/-! ## What each buffer holds after the line -/

/-- The three-operand result, with the result reference un-indexed so that one simplifier pass can use it (the
    library's restated result lemmas are in this form). -/
theorem nary3_result' {x a b y : Ref sig .tc}
    (f : ((k : Fin 3) → ((![x, a, b] : Fin 3 → Ref sig .tc) k).ty.Contents (Elt F)) → y.ty.Contents (Elt F)) (hxs hy)
    (V : Valuation τ sig (Elt F)) :
    (nary (τ := τ) ![x, a, b] y f hxs hy).result V (no_index (Proc.devRef .tc y))
      = f (Fin.cons (V (Proc.devRef .tc x)) (Fin.cons (V (Proc.devRef .tc a)) (Fin.cons (V (Proc.devRef .tc b)) (fun i => i.elim0)))) :=
  nary3_result f hxs hy V

/-- Rewrites what a literal line of operations leaves at a literal reference, in one pass: each operation's result
    at its own result buffer is its function's value, at any other reference what was there. The concatenation is
    an operation over a literal family of three operands. -/
local macro "line_results" : tactic =>
  `(tactic| (simp (disch := decide) only [after_cons, after_nil,
      nullary_result', unary_result', binary_result', ternary_result', nary3_result', nary_result',
      nullary_result_ne', unary_result_ne', binary_result_ne', ternary_result_ne', nary_result_ne']))

/-- The result buffer after the line: the composed term of the seven float arguments' contents. -/
theorem out_eq (V : Valuation τ sig (Elt F)) :
    after ops V (Proc.devRef .tc main_v9)
      = refOut (V (Proc.devRef .tc main_arg0)) (V (Proc.devRef .tc main_arg1)) (V (Proc.devRef .tc main_arg2))
          (V (Proc.devRef .tc main_arg5)) (V (Proc.devRef .tc main_arg6)) (V (Proc.devRef .tc main_arg7))
          (V (Proc.devRef .tc main_arg8)) := by
  line_results
  rfl

theorem arg0_eq (V : Valuation τ sig (Elt F)) : after ops V (Proc.devRef .tc main_arg0) = V (Proc.devRef .tc main_arg0) := by line_results
theorem arg1_eq (V : Valuation τ sig (Elt F)) : after ops V (Proc.devRef .tc main_arg1) = V (Proc.devRef .tc main_arg1) := by line_results
theorem arg2_eq (V : Valuation τ sig (Elt F)) : after ops V (Proc.devRef .tc main_arg2) = V (Proc.devRef .tc main_arg2) := by line_results
theorem arg3_eq (V : Valuation τ sig (Elt F)) : after ops V (Proc.devRef .tc main_arg3) = V (Proc.devRef .tc main_arg3) := by line_results
theorem arg4_eq (V : Valuation τ sig (Elt F)) : after ops V (Proc.devRef .tc main_arg4) = V (Proc.devRef .tc main_arg4) := by line_results
theorem arg5_eq (V : Valuation τ sig (Elt F)) : after ops V (Proc.devRef .tc main_arg5) = V (Proc.devRef .tc main_arg5) := by line_results
theorem arg6_eq (V : Valuation τ sig (Elt F)) : after ops V (Proc.devRef .tc main_arg6) = V (Proc.devRef .tc main_arg6) := by line_results
theorem arg7_eq (V : Valuation τ sig (Elt F)) : after ops V (Proc.devRef .tc main_arg7) = V (Proc.devRef .tc main_arg7) := by line_results
theorem arg8_eq (V : Valuation τ sig (Elt F)) : after ops V (Proc.devRef .tc main_arg8) = V (Proc.devRef .tc main_arg8) := by line_results

/-! ## The run -/

/-- On every device, for any float values, from any memory with zero counters: every weakly fair execution of the
    program terminates with the result buffer at the composed term of the arguments' launch contents and every
    argument buffer unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v9) = refOut (m ((c.tc : Thread nD τ).loc main_arg0)) (m ((c.tc : Thread nD τ).loc main_arg1)) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => ⟨(h c main_v9).trans (out_eq _),
      (h c main_arg0).trans (arg0_eq _), (h c main_arg1).trans (arg1_eq _), (h c main_arg2).trans (arg2_eq _),
      (h c main_arg3).trans (arg3_eq _), (h c main_arg4).trans (arg4_eq _), (h c main_arg5).trans (arg5_eq _),
      (h c main_arg6).trans (arg6_eq _), (h c main_arg7).trans (arg7_eq _), (h c main_arg8).trans (arg8_eq _)⟩)
    (run_seq scopedRefs_eq scopedSems_eq defs main (fun _ => ops) main_eq (fun _ => ops_sub) m ρ)

end Cert.ReferenceIdeal.Line

end
-- ==== Proof.RefValue.lean ====
/-
  The reference's composed term is the specification, entry by entry.

  At the entry of coordinates (r, q) the reference's result is a sum over the 32 hidden units of the activated hidden
  value times a weight, plus a bias; the hidden value of edge r at unit c is a sum over the 1280 positions of the
  concatenated features times a weight, plus a bias. A host product with one contracted axis read at an index is the
  plain sum over that axis; the concatenation at position k is the first, second or third feature array at k, k − 512
  or k − 1024; a bias broadcast over the rows reads the bias at the column. The sum over 1280 positions is the sum of
  the three bands 512 + 512 + 256 (a regrouping of a finite sum in a commutative monoid: nothing need be finite).
  The activation as the program spells it — the entry where it is above zero, elsewhere one times
  `expm1` of the entry — is `exp h − 1` there, since the word of one is the number one.
-/
import proofs.«142949_j86535001080076_1_alg».proof.Proof.ReferenceLine
import proofs.«142949_j86535001080076_1_alg».proof.Proof.Spec
import Idealize.ShloMosaic.Lib.Pipeline.Value
import Idealize.ShloMosaic.Lib.ValueIdx
import Idealize.ShloMosaic.PureOps.Ideal.Laws

noncomputable section

open scoped BigOperators

namespace Cert.ReferenceIdeal.RefValue

open Cert.ReferenceIdeal Cert.ReferenceIdeal.Gen Cert.ReferenceIdeal.Line Idealize.ShloMosaic Idealize.ShloMosaic.ValueIdx

/-! ## The two products at an index -/

/-- The first product's dimension numbers: [200000, 1280] × [1280, 32], axis 1 against axis 0. -/
abbrev D1 := dot_S200000x1280_S1280x32_S200000x32_1_0_0_1_n_n
/-- The second product's dimension numbers: [200000, 32] × [32, 128], axis 1 against axis 0. -/
abbrev D2 := dot_S200000x32_S32x128_S200000x128_1_0_0_1_n_n

/-- The first product's left operand index at output (r, c) and contraction position k is (r, k). -/
theorem D1_lhs (r : Fin 200000) (c : Fin 32) (k : Fin 1280) :
    D1.lhsIdx (ix2 r c) ((contrEquiv1 D1 1280 rfl rfl).symm k) = ix2 r k := by
  funext a
  match a with
  | ⟨0, _⟩ => exact Fin.ext rfl
  | ⟨1, _⟩ => exact Fin.ext ((DotDims.lhsIdx_val_of_single D1 (cl := (1 : Fin 2)) rfl _ _).trans (contrEquiv1_symm_val D1 1280 rfl rfl k))

/-- The first product's right operand index at output (r, c) and contraction position k is (k, c). -/
theorem D1_rhs (r : Fin 200000) (c : Fin 32) (k : Fin 1280) :
    D1.rhsIdx (ix2 r c) ((contrEquiv1 D1 1280 rfl rfl).symm k) = ix2 k c := by
  funext a
  match a with
  | ⟨0, _⟩ => exact Fin.ext ((DotDims.rhsIdx_val_of_single D1 (cr := (0 : Fin 2)) rfl _ _).trans (contrEquiv1_symm_val D1 1280 rfl rfl k))
  | ⟨1, _⟩ => exact Fin.ext rfl

/-- The first product at (r, c): the sum over the 1280 positions of row r against column c. -/
theorem dot1_apply (X : FVec Ideal S200000x1280 .f32) (a5 : FVec Ideal S1280x32 .f32) (r : Fin 200000) (c : Fin 32) :
    Host.dotGeneral (F := Ideal) D1 none X a5 (ix2 r c) = ∑ k : Fin 1280, X (ix2 r k) * a5 (ix2 k c) := by
  refine (Ideal.dotGeneral_apply D1 none .single X a5 (ix2 r c)).trans ?_
  rw [← Equiv.sum_comp (contrEquiv1 D1 1280 rfl rfl).symm]
  refine Finset.sum_congr rfl fun k _ => ?_
  rw [D1_lhs, D1_rhs]

/-- The second product's left operand index at output (r, q) and contraction position c is (r, c). -/
theorem D2_lhs (r : Fin 200000) (q : Fin 128) (c : Fin 32) :
    D2.lhsIdx (ix2 r q) ((contrEquiv1 D2 32 rfl rfl).symm c) = ix2 r c := by
  funext a
  match a with
  | ⟨0, _⟩ => exact Fin.ext rfl
  | ⟨1, _⟩ => exact Fin.ext ((DotDims.lhsIdx_val_of_single D2 (cl := (1 : Fin 2)) rfl _ _).trans (contrEquiv1_symm_val D2 32 rfl rfl c))

/-- The second product's right operand index at output (r, q) and contraction position c is (c, q). -/
theorem D2_rhs (r : Fin 200000) (q : Fin 128) (c : Fin 32) :
    D2.rhsIdx (ix2 r q) ((contrEquiv1 D2 32 rfl rfl).symm c) = ix2 c q := by
  funext a
  match a with
  | ⟨0, _⟩ => exact Fin.ext ((DotDims.rhsIdx_val_of_single D2 (cr := (0 : Fin 2)) rfl _ _).trans (contrEquiv1_symm_val D2 32 rfl rfl c))
  | ⟨1, _⟩ => exact Fin.ext rfl

/-- The second product at (r, q): the sum over the 32 hidden units of row r against column q. -/
theorem dot2_apply (H : FVec Ideal S200000x32 .f32) (a7 : FVec Ideal S32x128 .f32) (r : Fin 200000) (q : Fin 128) :
    Host.dotGeneral (F := Ideal) D2 none H a7 (ix2 r q) = ∑ c : Fin 32, H (ix2 r c) * a7 (ix2 c q) := by
  refine (Ideal.dotGeneral_apply D2 none .single H a7 (ix2 r q)).trans ?_
  rw [← Equiv.sum_comp (contrEquiv1 D2 32 rfl rfl).symm]
  refine Finset.sum_congr rfl fun c _ => ?_
  rw [D2_lhs, D2_rhs]

/-! ## The concatenation at an index: its three bands -/

section Bands
variable {α : Type}

/-- The three feature arrays side by side. -/
abbrev cat (a0 a1 : S200000x512.Idx → α) (a2 : S200000x256.Idx → α) : S200000x1280.Idx → α :=
  concatenate S200000x1280 1 [⟨S200000x512, a0⟩, ⟨S200000x512, a1⟩, ⟨S200000x256, a2⟩]
    concatenates_S200000x512_S200000x512_S200000x256_S200000x1280_d1

/-- Columns 0 … 511 are the first array's. -/
theorem cat_band0 (a0 a1 : S200000x512.Idx → α) (a2 : S200000x256.Idx → α) (r : Fin 200000) (k : Fin 512) :
    cat a0 a1 a2 (ix2 r (⟨k.val, by omega⟩ : Fin 1280)) = a0 (ix2 r k) := by
  refine concatenate_apply_piece (t := S200000x1280) (1 : Fin 2) [⟨S200000x512, a0⟩, ⟨S200000x512, a1⟩, ⟨S200000x256, a2⟩]
    concatenates_S200000x512_S200000x512_S200000x256_S200000x1280_d1 _ 0 (by show 0 < 3; omega) S200000x512 a0 rfl rfl 0 rfl (ix2 r k) ?_ ?_
  · intro b hb
    match b with
    | ⟨0, _⟩ => rfl
    | ⟨1, _⟩ => exact absurd rfl hb
  · exact Nat.zero_add _

/-- Columns 512 … 1023 are the second array's. -/
theorem cat_band1 (a0 a1 : S200000x512.Idx → α) (a2 : S200000x256.Idx → α) (r : Fin 200000) (k : Fin 512) :
    cat a0 a1 a2 (ix2 r (⟨512 + k.val, by omega⟩ : Fin 1280)) = a1 (ix2 r k) := by
  refine concatenate_apply_piece (t := S200000x1280) (1 : Fin 2) [⟨S200000x512, a0⟩, ⟨S200000x512, a1⟩, ⟨S200000x256, a2⟩]
    concatenates_S200000x512_S200000x512_S200000x256_S200000x1280_d1 _ 1 (by show 1 < 3; omega) S200000x512 a1 rfl rfl 512 rfl (ix2 r k) ?_ ?_
  · intro b hb
    match b with
    | ⟨0, _⟩ => rfl
    | ⟨1, _⟩ => exact absurd rfl hb
  · rfl

/-- Columns 1024 … 1279 are the third array's. -/
theorem cat_band2 (a0 a1 : S200000x512.Idx → α) (a2 : S200000x256.Idx → α) (r : Fin 200000) (k : Fin 256) :
    cat a0 a1 a2 (ix2 r (⟨1024 + k.val, by omega⟩ : Fin 1280)) = a2 (ix2 r k) := by
  refine concatenate_apply_piece (t := S200000x1280) (1 : Fin 2) [⟨S200000x512, a0⟩, ⟨S200000x512, a1⟩, ⟨S200000x256, a2⟩]
    concatenates_S200000x512_S200000x512_S200000x256_S200000x1280_d1 _ 2 (by show 2 < 3; omega) S200000x256 a2 rfl rfl 1024 rfl (ix2 r k) ?_ ?_
  · intro b hb
    match b with
    | ⟨0, _⟩ => rfl
    | ⟨1, _⟩ => exact absurd rfl hb
  · rfl

/-- The first bias, made a row and repeated over the edges, reads the bias at the column. -/
theorem bias1_apply (a6 : S32.Idx → α) (r : Fin 200000) (c : Fin 32) :
    broadcastInDim S200000x32 ![0, 1] bcast_S1x32_S200000x32_0_1 (broadcastInDim S1x32 ![1] bcast_S32_S1x32_1 a6) (ix2 r c)
      = a6 (ix1 c) := by
  refine (broadcastInDim_apply _ _ _ _ (ix2 (0 : Fin 1) c) ?_).trans ?_
  · intro a
    match a with
    | ⟨0, _⟩ => rfl
    | ⟨1, _⟩ => rfl
  · refine broadcastInDim_apply _ _ _ _ (ix1 c) ?_
    intro a
    match a with
    | ⟨0, _⟩ => rfl

/-- The second bias, made a row and repeated over the edges, reads the bias at the column. -/
theorem bias2_apply (a8 : S128.Idx → α) (r : Fin 200000) (q : Fin 128) :
    broadcastInDim S200000x128 ![0, 1] bcast_S1x128_S200000x128_0_1 (broadcastInDim S1x128 ![1] bcast_S128_S1x128_1 a8) (ix2 r q)
      = a8 (ix1 q) := by
  refine (broadcastInDim_apply _ _ _ _ (ix2 (0 : Fin 1) q) ?_).trans ?_
  · intro a
    match a with
    | ⟨0, _⟩ => rfl
    | ⟨1, _⟩ => rfl
  · refine broadcastInDim_apply _ _ _ _ (ix1 q) ?_
    intro a
    match a with
    | ⟨0, _⟩ => rfl

end Bands

/-! ## A sum over 1280 positions as its three bands -/

/-- A sum over the 1280 positions is the sum over positions 0 … 511, plus that over 512 … 1023, plus that over
    1024 … 1279: in any commutative monoid. -/
theorem sum_bands {M : Type*} [AddCommMonoid M] (f : Fin 1280 → M) :
    ∑ k : Fin 1280, f k
      = (∑ k : Fin 512, f ⟨k.val, by omega⟩) + (∑ k : Fin 512, f ⟨512 + k.val, by omega⟩)
        + (∑ k : Fin 256, f ⟨1024 + k.val, by omega⟩) := by
  refine (Fin.sum_univ_add (a := 1024) (b := 256) f).trans ?_
  refine congrArg₂ (· + ·) ?_ rfl
  exact Fin.sum_univ_add (a := 512) (b := 512) fun i => f (Fin.castAdd 256 i)

/-! ## The activation at an entry -/

/-- The program's activation at an entry `h` is the specification's: where `h` is above zero both are `h`;
    elsewhere the inner selection gives `h`, `expm1 h` is `exp h − 1`, and the factor is the number one. -/
theorem elu_entry (h : EReal) :
    Scalar.select (FloatOps.cmpf (F := Ideal) (φ := .f32) .ogt h (Ideal.ofBits .f32 0x00000000#32)) h
        (FloatOps.mulf (F := Ideal) (φ := .f32) (Ideal.ofBits .f32 0x3F800000#32)
          (FloatOps.hostUnary (F := Ideal) (φ := .f32) .expm1
            (Scalar.select (FloatOps.cmpf (F := Ideal) (φ := .f32) .ogt h (Ideal.ofBits .f32 0x00000000#32))
              (Ideal.ofBits .f32 0x00000000#32) h)))
      = Cert.EdgeMlp.elu h := by
  unfold Cert.EdgeMlp.elu
  by_cases hc : FloatOps.cmpf (F := Ideal) (φ := .f32) .ogt h (Ideal.ofBits .f32 0x00000000#32) = 1#1
  · rw [hc, select_one, select_one]
  · rw [eq_zero_of_ne_one hc, select_zero, select_zero, select_zero]
    show Ideal.ofBits .f32 0x3F800000#32 * (Ideal.exp h - 1) = Ideal.exp h - Ideal.ofBits .f32 0x3F800000#32
    rw [Cert.EdgeMlp.one_word, one_mul]

/-- The activation array at an index is the specification's activation of the entry. -/
theorem eluArr_apply (X : FVec Ideal S200000x32 .f32) (i : S200000x32.Idx) :
    eluArr (F := Ideal) X i = Cert.EdgeMlp.elu (X i) :=
  elu_entry (X i)

/-! ## The hidden layer and the result at an index -/

/-- The hidden pre-activation array at (r, c) is the specification's. -/
theorem preArr_apply (a0 a1 : FVec Ideal S200000x512 .f32) (a2 : FVec Ideal S200000x256 .f32)
    (a5 : FVec Ideal S1280x32 .f32) (a6 : FVec Ideal S32 .f32) (r : Fin 200000) (c : Fin 32) :
    preArr (F := Ideal) a0 a1 a2 a5 a6 (ix2 r c) = Cert.EdgeMlp.pre a0 a1 a2 a5 a6 r c := by
  unfold preArr Cert.EdgeMlp.pre
  refine congrArg₂ (· + ·) ?_ (bias1_apply a6 r c)
  refine (dot1_apply (cat a0 a1 a2) a5 r c).trans ((sum_bands _).trans ?_)
  refine congrArg₂ (· + ·) (congrArg₂ (· + ·) ?_ ?_) ?_
  · exact Finset.sum_congr rfl fun k _ => congrArg (· * _) (cat_band0 a0 a1 a2 r k)
  · exact Finset.sum_congr rfl fun k _ => congrArg (· * _) (cat_band1 a0 a1 a2 r k)
  · exact Finset.sum_congr rfl fun k _ => congrArg (· * _) (cat_band2 a0 a1 a2 r k)

/-- The reference's composed term is the specification's output array. -/
theorem refOut_eq (a0 a1 : FVec Ideal S200000x512 .f32) (a2 : FVec Ideal S200000x256 .f32) (a5 : FVec Ideal S1280x32 .f32)
    (a6 : FVec Ideal S32 .f32) (a7 : FVec Ideal S32x128 .f32) (a8 : FVec Ideal S128 .f32) :
    Cert.ReferenceIdeal.Line.refOut (F := Ideal) a0 a1 a2 a5 a6 a7 a8 = Cert.EdgeMlp.out a0 a1 a2 a5 a6 a7 a8 := by
  funext i
  obtain ⟨r, q, rfl⟩ : ∃ (r : Fin 200000) (q : Fin 128), i = ix2 r q := ⟨i 0, i 1, eq_ix2 i⟩
  rw [Cert.EdgeMlp.out_ix2]
  unfold refOut Cert.EdgeMlp.outAt
  refine congrArg₂ (· + ·) ?_ (bias2_apply a8 r q)
  refine (dot2_apply _ a7 r q).trans ?_
  refine Finset.sum_congr rfl fun c _ => congrArg (· * _) ?_
  rw [eluArr_apply, preArr_apply]

end Cert.ReferenceIdeal.RefValue

end
-- ==== Proof.lean ====
/-
  The certificate of an edge model's two-layer network: the kernel against its plain reference, on the extended reals.

  Each of 200000 edges carries 512 source-node features, 512 destination-node features and 256 features of its own.
  The reference lays the three groups side by side (1280 columns), multiplies by the first weight matrix (1280 × 32),
  adds the bias, applies ELU, multiplies by the second weight matrix (32 × 128) and adds the second bias. The kernel
  never forms the 1280-column array: it walks the rows in 100 blocks of 2000 and, per block, multiplies each feature
  group by its own band of rows of the first weight matrix and adds the three products.

  The two agree entry by entry as extended reals because
    * a sum over the 1280 contracted positions is the sum of its three bands (`0…511`, `512…1023`, `1024…1279`) —
      a regrouping of one sum, valid at infinite entries too, so the finiteness of the inputs is never used;
    * a matrix product into a zero accumulator and the host's product are the same sum of products, and a change
      of float format is the identity on the extended reals;
    * the reference's ELU is `h` where `h > 0` and `1 · expm1 h` elsewhere, the kernel's `exp h − 1` elsewhere:
      `expm1 h` is `exp h − 1` on the extended reals and the factor is the real number one.
  `Proof/Spec.lean` states the common function; `Proof/KernelEntry.lean` and `Proof/KernelArray.lean` show the
  kernel's output array ends holding it (a block at a time, the row blocks tiling the array); `Proof/ReferenceLine.lean`
  and `Proof/RefValue.lean` show the reference's result is it. The idealized kernel is the kernel's own text read on
  the extended reals (no operation was rewritten), so that conjunct is trivial.
-/
import proofs.«142949_j86535001080076_1_alg».proof.Defs
import proofs.«142949_j86535001080076_1_alg».proof.Proof.Gen.Kernel
import proofs.«142949_j86535001080076_1_alg».proof.Proof.Gen.Kernel.Skeleton
import proofs.«142949_j86535001080076_1_alg».proof.Proof.Gen.Kernel.Launch
import proofs.«142949_j86535001080076_1_alg».proof.Proof.Gen.Kernel.Points
import proofs.«142949_j86535001080076_1_alg».proof.Proof.Gen.Kernel.Frame
import proofs.«142949_j86535001080076_1_alg».proof.Proof.Gen.KernelIdeal
import proofs.«142949_j86535001080076_1_alg».proof.Proof.Gen.KernelIdeal.Skeleton
import proofs.«142949_j86535001080076_1_alg».proof.Proof.Gen.KernelIdeal.Launch
import proofs.«142949_j86535001080076_1_alg».proof.Proof.Gen.KernelIdeal.Points
import proofs.«142949_j86535001080076_1_alg».proof.Proof.Gen.KernelIdeal.Frame
import proofs.«142949_j86535001080076_1_alg».proof.Proof.Gen.KernelIdeal.Value
import proofs.«142949_j86535001080076_1_alg».proof.Proof.Gen.ReferenceIdeal
import proofs.«142949_j86535001080076_1_alg».proof.Proof.Gen.Pre_finite_inputs
import proofs.«142949_j86535001080076_1_alg».proof.Proof.KernelArray
import proofs.«142949_j86535001080076_1_alg».proof.Proof.RefValue
import Idealize.ShloMosaic.Adequacy
import Idealize.ShloMosaic.Init

noncomputable section

namespace Cert.Proof

open Idealize.ShloMosaic Idealize.SL.Sem

/-- The kernel's program, word for word, runs and leaves its arguments as they were. -/
theorem frame_kernel : Cert.frame_Kernel := fun m ρ _ => Cert.Kernel.Gen.frame m ρ

/-- So does the same text read on the extended reals. -/
theorem frame_kernelIdeal : Cert.frame_KernelIdeal := fun m ρ _ => Cert.KernelIdeal.Gen.frame m ρ

/-- The reference is a straight line of array operations: its run, with the result forgotten. -/
theorem frame_reference : Cert.frame_ReferenceIdeal := fun m ρ _ =>
  (θ_run Cert.ReferenceIdeal.defs _ _).mono (fun _ h c => (h c).2) (Cert.ReferenceIdeal.Line.run (F := Ideal) m ρ)

/-- No operation of the kernel was rewritten for the extended reals. -/
theorem preserves : Cert.preserves_Kernel_KernelIdeal := trivial

/-- From memories that agree on the arguments, the kernel's output array and the reference's result are the same
    function of the arguments: the kernel's by its blocks, the reference's by its operations read at an entry. -/
theorem algebraic : Cert.algebraic_KernelIdeal_ReferenceIdeal := by
  intro m ρ m' ρ' _ hagree
  refine ⟨fun c => Cert.KernelIdeal.Whole.outArr m c, Cert.KernelIdeal.Whole.run m ρ, ?_⟩
  refine (θ_run Cert.ReferenceIdeal.defs _ _).mono (fun _ h c => ⟨(h c).1.trans ?_, (h c).2⟩)
    (Cert.ReferenceIdeal.Line.run (F := Ideal) m' ρ')
  rw [Cert.ReferenceIdeal.RefValue.refOut_eq]
  obtain ⟨e0, e1, e2, -, -, e5, e6, e7, e8⟩ := hagree c
  rw [e0, e1, e2, e5, e6, e7, e8]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
